-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x16 : Shape := ⟨3, ![64, 4096, 16]⟩
abbrev S64x16x256 : Shape := ⟨3, ![64, 16, 256]⟩
abbrev S64x1x256 : Shape := ⟨3, ![64, 1, 256]⟩
abbrev S64x256x256 : Shape := ⟨3, ![64, 256, 256]⟩
abbrev S64x256x1 : Shape := ⟨3, ![64, 256, 1]⟩
abbrev S64x1x1 : Shape := ⟨3, ![64, 1, 1]⟩
abbrev S_ : Shape := ⟨0, ![]⟩

class Facts : Prop where
  bcast_S_S64x4096x16 : S_.BroadcastsInDim S64x4096x16 (![] : Fin 0 → Fin S64x4096x16.rank)
  reducesTo_S64x4096x16_S_d0_1_2 : S64x4096x16.ReducesTo [0, 1, 2] S_
  h_S_ : 0 < S_.numel
  bcast_S_S64x16x256 : S_.BroadcastsInDim S64x16x256 (![] : Fin 0 → Fin S64x16x256.rank)
  reducesTo_S64x16x256_S_d0_1_2 : S64x16x256.ReducesTo [0, 1, 2] S_
  bcast_S_S64x1x256 : S_.BroadcastsInDim S64x1x256 (![] : Fin 0 → Fin S64x1x256.rank)
  reducesTo_S64x1x256_S_d0_1_2 : S64x1x256.ReducesTo [0, 1, 2] S_
  bcast_S_S64x256x256 : S_.BroadcastsInDim S64x256x256 (![] : Fin 0 → Fin S64x256x256.rank)
  reducesTo_S64x256x256_S_d0_1_2 : S64x256x256.ReducesTo [0, 1, 2] S_
  bcast_S_S64x256x1 : S_.BroadcastsInDim S64x256x1 (![] : Fin 0 → Fin S64x256x1.rank)
  reducesTo_S64x256x1_S_d0_1_2 : S64x256x1.ReducesTo [0, 1, 2] S_
  bcast_S_S64x1x1 : S_.BroadcastsInDim S64x1x1 (![] : Fin 0 → Fin S64x1x1.rank)
  reducesTo_S64x1x1_S_d0_1_2 : S64x1x1.ReducesTo [0, 1, 2] S_

variable [Facts]

def fn_part2 {F : FTy → Type} [FloatOps F] (main_arg7 : FVec F S64x256x1 .f32) (main_arg8 : FVec F S64x1x1 .f32) (main_v33 : IVec S_ 1) : IVec S_ 1 :=
  let main_v34 : FVec F S64x256x1 .f32 := Host.absf main_arg7
  let main_cst_12 : FVec F S_ .f32 := constant S_ .f32 0x7F800000#32
  let main_v35 : FVec F S64x256x1 .f32 := broadcastInDim S64x256x1 ![] bcast_S_S64x256x1 main_cst_12
  let main_v36 : IVec S64x256x1 1 := cmpf .olt main_v34 main_v35
  let main_c_13 : IVec S_ 1 := constantI S_ 1 1#1
  let main_v37 : IVec S_ 1 := (fun x v => Host.reduce IntOp.andi x v reducesTo_S64x256x1_S_d0_1_2 h_S_) main_v36 main_c_13
  let main_v38 : IVec S_ 1 := andi main_v33 main_v37
  let main_v39 : FVec F S64x1x1 .f32 := Host.absf main_arg8
  let main_cst_14 : FVec F S_ .f32 := constant S_ .f32 0x7F800000#32
  let main_v40 : FVec F S64x1x1 .f32 := broadcastInDim S64x1x1 ![] bcast_S_S64x1x1 main_cst_14
  let main_v41 : IVec S64x1x1 1 := cmpf .olt main_v39 main_v40
  let main_c_15 : IVec S_ 1 := constantI S_ 1 1#1
  let main_v42 : IVec S_ 1 := (fun x v => Host.reduce IntOp.andi x v reducesTo_S64x1x1_S_d0_1_2 h_S_) main_v41 main_c_15
  let main_v43 : IVec S_ 1 := andi main_v38 main_v42
  main_v43

def fn_part1 {F : FTy → Type} [FloatOps F] (main_arg4 : FVec F S64x1x256 .f32) (main_arg5 : FVec F S64x256x256 .f32) (main_arg6 : FVec F S64x1x256 .f32) (main_arg7 : FVec F S64x256x1 .f32) (main_arg8 : FVec F S64x1x1 .f32) (main_v13 : IVec S_ 1) (main_v16 : IVec S64x256x256 1) : IVec S_ 1 :=
  let main_c_5 : IVec S_ 1 := constantI S_ 1 1#1
  let main_v17 : IVec S_ 1 := (fun x v => Host.reduce IntOp.andi x v reducesTo_S64x256x256_S_d0_1_2 h_S_) main_v16 main_c_5
  let main_v18 : IVec S_ 1 := andi main_v13 main_v17
  let main_v19 : FVec F S64x1x256 .f32 := Host.absf main_arg4
  let main_cst_6 : FVec F S_ .f32 := constant S_ .f32 0x7F800000#32
  let main_v20 : FVec F S64x1x256 .f32 := broadcastInDim S64x1x256 ![] bcast_S_S64x1x256 main_cst_6
  let main_v21 : IVec S64x1x256 1 := cmpf .olt main_v19 main_v20
  let main_c_7 : IVec S_ 1 := constantI S_ 1 1#1
  let main_v22 : IVec S_ 1 := (fun x v => Host.reduce IntOp.andi x v reducesTo_S64x1x256_S_d0_1_2 h_S_) main_v21 main_c_7
  let main_v23 : IVec S_ 1 := andi main_v18 main_v22
  let main_v24 : FVec F S64x256x256 .f32 := Host.absf main_arg5
  let main_cst_8 : FVec F S_ .f32 := constant S_ .f32 0x7F800000#32
  let main_v25 : FVec F S64x256x256 .f32 := broadcastInDim S64x256x256 ![] bcast_S_S64x256x256 main_cst_8
  let main_v26 : IVec S64x256x256 1 := cmpf .olt main_v24 main_v25
  let main_c_9 : IVec S_ 1 := constantI S_ 1 1#1
  let main_v27 : IVec S_ 1 := (fun x v => Host.reduce IntOp.andi x v reducesTo_S64x256x256_S_d0_1_2 h_S_) main_v26 main_c_9
  let main_v28 : IVec S_ 1 := andi main_v23 main_v27
  let main_v29 : FVec F S64x1x256 .f32 := Host.absf main_arg6
  let main_cst_10 : FVec F S_ .f32 := constant S_ .f32 0x7F800000#32
  let main_v30 : FVec F S64x1x256 .f32 := broadcastInDim S64x1x256 ![] bcast_S_S64x1x256 main_cst_10
  let main_v31 : IVec S64x1x256 1 := cmpf .olt main_v29 main_v30
  let main_c_11 : IVec S_ 1 := constantI S_ 1 1#1
  let main_v32 : IVec S_ 1 := (fun x v => Host.reduce IntOp.andi x v reducesTo_S64x1x256_S_d0_1_2 h_S_) main_v31 main_c_11
  let main_v33 : IVec S_ 1 := andi main_v28 main_v32
  fn_part2 (F := F) main_arg7 main_arg8 main_v33

def fn {F : FTy → Type} [FloatOps F] (main_arg0 : FVec F S64x4096x16 .f32) (main_arg1 : FVec F S64x16x256 .f32) (main_arg2 : FVec F S64x1x256 .f32) (main_arg3 : FVec F S64x256x256 .f32) (main_arg4 : FVec F S64x1x256 .f32) (main_arg5 : FVec F S64x256x256 .f32) (main_arg6 : FVec F S64x1x256 .f32) (main_arg7 : FVec F S64x256x1 .f32) (main_arg8 : FVec F S64x1x1 .f32) : IVec S_ 1 :=
  let main_v0 : FVec F S64x4096x16 .f32 := Host.absf main_arg0
  let main_cst : FVec F S_ .f32 := constant S_ .f32 0x7F800000#32
  let main_v1 : FVec F S64x4096x16 .f32 := broadcastInDim S64x4096x16 ![] bcast_S_S64x4096x16 main_cst
  let main_v2 : IVec S64x4096x16 1 := cmpf .olt main_v0 main_v1
  let main_c : IVec S_ 1 := constantI S_ 1 1#1
  let main_v3 : IVec S_ 1 := (fun x v => Host.reduce IntOp.andi x v reducesTo_S64x4096x16_S_d0_1_2 h_S_) main_v2 main_c
  let main_v4 : FVec F S64x16x256 .f32 := Host.absf main_arg1
  let main_cst_0 : FVec F S_ .f32 := constant S_ .f32 0x7F800000#32
  let main_v5 : FVec F S64x16x256 .f32 := broadcastInDim S64x16x256 ![] bcast_S_S64x16x256 main_cst_0
  let main_v6 : IVec S64x16x256 1 := cmpf .olt main_v4 main_v5
  let main_c_1 : IVec S_ 1 := constantI S_ 1 1#1
  let main_v7 : IVec S_ 1 := (fun x v => Host.reduce IntOp.andi x v reducesTo_S64x16x256_S_d0_1_2 h_S_) main_v6 main_c_1
  let main_v8 : IVec S_ 1 := andi main_v3 main_v7
  let main_v9 : FVec F S64x1x256 .f32 := Host.absf main_arg2
  let main_cst_2 : FVec F S_ .f32 := constant S_ .f32 0x7F800000#32
  let main_v10 : FVec F S64x1x256 .f32 := broadcastInDim S64x1x256 ![] bcast_S_S64x1x256 main_cst_2
  let main_v11 : IVec S64x1x256 1 := cmpf .olt main_v9 main_v10
  let main_c_3 : IVec S_ 1 := constantI S_ 1 1#1
  let main_v12 : IVec S_ 1 := (fun x v => Host.reduce IntOp.andi x v reducesTo_S64x1x256_S_d0_1_2 h_S_) main_v11 main_c_3
  let main_v13 : IVec S_ 1 := andi main_v8 main_v12
  let main_v14 : FVec F S64x256x256 .f32 := Host.absf main_arg3
  let main_cst_4 : FVec F S_ .f32 := constant S_ .f32 0x7F800000#32
  let main_v15 : FVec F S64x256x256 .f32 := broadcastInDim S64x256x256 ![] bcast_S_S64x256x256 main_cst_4
  let main_v16 : IVec S64x256x256 1 := cmpf .olt main_v14 main_v15
  fn_part1 (F := F) main_arg4 main_arg5 main_arg6 main_arg7 main_arg8 main_v13 main_v16
-- ==== Kernel.lean ====
abbrev S64x4096x16 : Shape := ⟨3, ![64, 4096, 16]⟩
abbrev S64x16x256 : Shape := ⟨3, ![64, 16, 256]⟩
abbrev S64x1x256 : Shape := ⟨3, ![64, 1, 256]⟩
abbrev S64x256x256 : Shape := ⟨3, ![64, 256, 256]⟩
abbrev S64x256x1 : Shape := ⟨3, ![64, 256, 1]⟩
abbrev S64x1x1 : Shape := ⟨3, ![64, 1, 1]⟩
abbrev S64x4096x1 : Shape := ⟨3, ![64, 4096, 1]⟩
abbrev S1x2048x16 : Shape := ⟨3, ![1, 2048, 16]⟩
abbrev S1x16x256 : Shape := ⟨3, ![1, 16, 256]⟩
abbrev S1x1x256 : Shape := ⟨3, ![1, 1, 256]⟩
abbrev S1x256x256 : Shape := ⟨3, ![1, 256, 256]⟩
abbrev S1x1x1 : Shape := ⟨3, ![1, 1, 1]⟩
abbrev S1x2048x1 : Shape := ⟨3, ![1, 2048, 1]⟩
abbrev S2048x16 : Shape := ⟨2, ![2048, 16]⟩
abbrev S16x256 : Shape := ⟨2, ![16, 256]⟩
abbrev S2048x256 : Shape := ⟨2, ![2048, 256]⟩
abbrev S1x256 : Shape := ⟨2, ![1, 256]⟩
abbrev S256x256 : Shape := ⟨2, ![256, 256]⟩
abbrev S2048 : Shape := ⟨1, ![2048]⟩
abbrev S2048x1 : Shape := ⟨2, ![2048, 1]⟩
abbrev S1x1 : Shape := ⟨2, ![1, 1]⟩

abbrev nBuf : Space → Nat
  | .hbm => 11
  | .vmem => 20
  | .smem => 0
  | _ => 0

abbrev bufTy : (tb : Table) → Fin (tcTables nBuf tb) → BufTy
  | .hbm, ⟨0, _⟩ => ⟨S64x4096x16, .f32⟩
  | .hbm, ⟨1, _⟩ => ⟨S64x16x256, .f32⟩
  | .hbm, ⟨2, _⟩ => ⟨S64x1x256, .f32⟩
  | .hbm, ⟨3, _⟩ => ⟨S64x256x256, .f32⟩
  | .hbm, ⟨4, _⟩ => ⟨S64x1x256, .f32⟩
  | .hbm, ⟨5, _⟩ => ⟨S64x256x256, .f32⟩
  | .hbm, ⟨6, _⟩ => ⟨S64x1x256, .f32⟩
  | .hbm, ⟨7, _⟩ => ⟨S64x256x1, .f32⟩
  | .hbm, ⟨8, _⟩ => ⟨S64x1x1, .f32⟩
  | .hbm, ⟨9, _⟩ => ⟨S64x1x256, .f32⟩
  | .hbm, ⟨10, _⟩ => ⟨S64x4096x1, .f32⟩
  | .local _ .vmem, ⟨0, _⟩ => ⟨S1x2048x16, .f32⟩
  | .local _ .vmem, ⟨1, _⟩ => ⟨S1x2048x16, .f32⟩
  | .local _ .vmem, ⟨2, _⟩ => ⟨S1x16x256, .f32⟩
  | .local _ .vmem, ⟨3, _⟩ => ⟨S1x16x256, .f32⟩
  | .local _ .vmem, ⟨4, _⟩ => ⟨S1x1x256, .f32⟩
  | .local _ .vmem, ⟨5, _⟩ => ⟨S1x1x256, .f32⟩
  | .local _ .vmem, ⟨6, _⟩ => ⟨S1x256x256, .f32⟩
  | .local _ .vmem, ⟨7, _⟩ => ⟨S1x256x256, .f32⟩
  | .local _ .vmem, ⟨8, _⟩ => ⟨S1x1x256, .f32⟩
  | .local _ .vmem, ⟨9, _⟩ => ⟨S1x1x256, .f32⟩
  | .local _ .vmem, ⟨10, _⟩ => ⟨S1x256x256, .f32⟩
  | .local _ .vmem, ⟨11, _⟩ => ⟨S1x256x256, .f32⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1x1x256, .f32⟩
  | .local _ .vmem, ⟨16, _⟩ => ⟨S1x1x1, .f32⟩
  | .local _ .vmem, ⟨17, _⟩ => ⟨S1x1x1, .f32⟩
  | .local _ .vmem, ⟨18, _⟩ => ⟨S1x2048x1, .f32⟩
  | .local _ .vmem, ⟨19, _⟩ => ⟨S1x2048x1, .f32⟩
  | _, _ => ⟨S64x4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  transposes_S64x256x1_S64x1x256_0_2_1 : S64x256x1.Transposes [0, 2, 1] S64x1x256
  inb_S1x2048x16_S1x2048x16_0_0_0 : ∀ a, (![0, 0, 0] : Fin 3 → Nat) a + S1x2048x16.size a ≤ S1x2048x16.size a
  h_S1x2048x16 : 0 < S1x2048x16.numel
  shapeCasts_S1x2048x16_S2048x16 : S1x2048x16.ShapeCasts S2048x16
  bitsLt_bf16_f32 : FTy.bits .bf16 < FTy.bits .f32
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S2048x256 : S1x256.Broadcasts S2048x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  reduces_S2048x256_S2048 : S2048x256.Reduces [1] S2048
  shapeCasts_S2048_S2048x1 : S2048.ShapeCasts S2048x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  broadcasts_S1x1_S2048x1 : S1x1.Broadcasts S2048x1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  dot_S2048x16_S16x256_S2048x256_1_0_0_1_n_n_wf : DotDims.WF S2048x16 S16x256 S2048x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x16.size a ≤ S64x4096x16.size a
  hwx0_0 : ∀ i : grid0.Coords, EltTy.bits .f32 = 32 ∨ (Rect.block (s := S64x4096x16) S1x2048x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256.size a ≤ S64x16x256.size a
  hwx0_1 : ∀ i : grid0.Coords, EltTy.bits .f32 = 32 ∨ (Rect.block (s := S64x16x256) S1x16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S64x1x256.size a
  hwx0_2 : ∀ i : grid0.Coords, EltTy.bits .f32 = 32 ∨ (Rect.block (s := S64x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S64x256x256.size a
  hwx0_3 : ∀ i : grid0.Coords, EltTy.bits .f32 = 32 ∨ (Rect.block (s := S64x256x256) S1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S64x1x256.size a
  hwx0_4 : ∀ i : grid0.Coords, EltTy.bits .f32 = 32 ∨ (Rect.block (s := S64x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x256.size a ≤ S64x256x256.size a
  hwx0_5 : ∀ i : grid0.Coords, EltTy.bits .f32 = 32 ∨ (Rect.block (s := S64x256x256) S1x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S64x1x256.size a
  hwx0_6 : ∀ i : grid0.Coords, EltTy.bits .f32 = 32 ∨ (Rect.block (s := S64x1x256) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S64x1x256.size a
  hwx0_7 : ∀ i : grid0.Coords, EltTy.bits .f32 = 32 ∨ (Rect.block (s := S64x1x256) S1x1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S64x1x1.size a
  hwx0_8 : ∀ i : grid0.Coords, EltTy.bits .f32 = 32 ∨ (Rect.block (s := S64x1x1) S1x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x2048x1.size a ≤ S64x4096x1.size a
  hwx0_9 : ∀ i : grid0.Coords, EltTy.bits .f32 = 32 ∨ (Rect.block (s := S64x4096x1) S1x2048x1.size (cc0_transform_9 i) (hinb0_9 i)).WholeWords (EltTy.packing .f32)

variable [Facts₀]

def dot_S2048x16_S16x256_S2048x256_1_0_0_1_n_n : DotDims S2048x16 S16x256 S2048x256 where
  lhsContracting := [1]
  rhsContracting := [0]
  lhsNonContracting := [0]
  rhsNonContracting := [1]
  lhsBatch := []
  rhsBatch := []
  wf := dot_S2048x16_S16x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S1x2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x1x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1x2048x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x4096x16 : Shape := ⟨3, ![64, 4096, 16]⟩
abbrev S64x16x256 : Shape := ⟨3, ![64, 16, 256]⟩
abbrev S64x1x256 : Shape := ⟨3, ![64, 1, 256]⟩
abbrev S64x256x256 : Shape := ⟨3, ![64, 256, 256]⟩
abbrev S64x256x1 : Shape := ⟨3, ![64, 256, 1]⟩
abbrev S64x1x1 : Shape := ⟨3, ![64, 1, 1]⟩
abbrev S64x4096x256 : Shape := ⟨3, ![64, 4096, 256]⟩
abbrev S_ : Shape := ⟨0, ![]⟩
abbrev S64x4096x1 : Shape := ⟨3, ![64, 4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S64x4096x16, .f32⟩
  | .hbm, ⟨1, _⟩ => ⟨S64x16x256, .f32⟩
  | .hbm, ⟨2, _⟩ => ⟨S64x1x256, .f32⟩
  | .hbm, ⟨3, _⟩ => ⟨S64x256x256, .f32⟩
  | .hbm, ⟨4, _⟩ => ⟨S64x1x256, .f32⟩
  | .hbm, ⟨5, _⟩ => ⟨S64x256x256, .f32⟩
  | .hbm, ⟨6, _⟩ => ⟨S64x1x256, .f32⟩
  | .hbm, ⟨7, _⟩ => ⟨S64x256x1, .f32⟩
  | .hbm, ⟨8, _⟩ => ⟨S64x1x1, .f32⟩
  | .hbm, ⟨9, _⟩ => ⟨S64x4096x256, .f32⟩
  | .hbm, ⟨10, _⟩ => ⟨S64x4096x256, .f32⟩
  | .hbm, ⟨11, _⟩ => ⟨S64x4096x256, .f32⟩
  | .hbm, ⟨12, _⟩ => ⟨S64x4096x256, .f32⟩
  | .hbm, ⟨13, _⟩ => ⟨S64x4096x256, .f32⟩
  | .hbm, ⟨14, _⟩ => ⟨S_, .f32⟩
  | .hbm, ⟨15, _⟩ => ⟨S64x4096x256, .f32⟩
  | .hbm, ⟨16, _⟩ => ⟨S64x4096x256, .f32⟩
  | .hbm, ⟨17, _⟩ => ⟨S_, .f32⟩
  | .hbm, ⟨18, _⟩ => ⟨S64x4096x256, .f32⟩
  | .hbm, ⟨19, _⟩ => ⟨S64x4096x256, .f32⟩
  | .hbm, ⟨20, _⟩ => ⟨S64x4096x256, .f32⟩
  | .hbm, ⟨21, _⟩ => ⟨S64x4096x256, .f32⟩
  | .hbm, ⟨22, _⟩ => ⟨S64x4096x256, .f32⟩
  | .hbm, ⟨23, _⟩ => ⟨S64x4096x256, .f32⟩
  | .hbm, ⟨24, _⟩ => ⟨S64x4096x256, .f32⟩
  | .hbm, ⟨25, _⟩ => ⟨S64x4096x256, .f32⟩
  | .hbm, ⟨26, _⟩ => ⟨S_, .f32⟩
  | .hbm, ⟨27, _⟩ => ⟨S64x4096x256, .f32⟩
  | .hbm, ⟨28, _⟩ => ⟨S64x4096x256, .f32⟩
  | .hbm, ⟨29, _⟩ => ⟨S_, .f32⟩
  | .hbm, ⟨30, _⟩ => ⟨S64x4096x256, .f32⟩
  | .hbm, ⟨31, _⟩ => ⟨S64x4096x256, .f32⟩
  | .hbm, ⟨32, _⟩ => ⟨S64x4096x256, .f32⟩
  | .hbm, ⟨33, _⟩ => ⟨S64x4096x256, .f32⟩
  | .hbm, ⟨34, _⟩ => ⟨S64x4096x256, .f32⟩
  | .hbm, ⟨35, _⟩ => ⟨S64x4096x256, .f32⟩
  | .hbm, ⟨36, _⟩ => ⟨S64x4096x256, .f32⟩
  | .hbm, ⟨37, _⟩ => ⟨S64x4096x256, .f32⟩
  | .hbm, ⟨38, _⟩ => ⟨S_, .f32⟩
  | .hbm, ⟨39, _⟩ => ⟨S64x4096x256, .f32⟩
  | .hbm, ⟨40, _⟩ => ⟨S64x4096x256, .f32⟩
  | .hbm, ⟨41, _⟩ => ⟨S_, .f32⟩
  | .hbm, ⟨42, _⟩ => ⟨S64x4096x256, .f32⟩
  | .hbm, ⟨43, _⟩ => ⟨S64x4096x256, .f32⟩
  | .hbm, ⟨44, _⟩ => ⟨S64x4096x256, .f32⟩
  | .hbm, ⟨45, _⟩ => ⟨S64x4096x1, .f32⟩
  | .hbm, ⟨46, _⟩ => ⟨S64x4096x1, .f32⟩
  | .hbm, ⟨47, _⟩ => ⟨S64x4096x1, .f32⟩
  | _, _ => ⟨S64x4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩

abbrev nD : Nat := 1
abbrev τ : Topo := Topo.v7x

variable {F : FTy → Type} [FloatOps F]

class Facts₀ : Prop where
  bcast_S64x1x256_S64x4096x256_0_1_2 : S64x1x256.BroadcastsInDim S64x4096x256 (![0, 1, 2] : Fin 3 → Fin S64x4096x256.rank)
  bcast_S_S64x4096x256 : S_.BroadcastsInDim S64x4096x256 (![] : Fin 0 → Fin S64x4096x256.rank)
  bcast_S64x1x1_S64x4096x1_0_1_2 : S64x1x1.BroadcastsInDim S64x4096x1 (![0, 1, 2] : Fin 3 → Fin S64x4096x1.rank)
  dot_S64x4096x16_S64x16x256_S64x4096x256_2_1_1_2_0_0_wf : DotDims.WF S64x4096x16 S64x16x256 S64x4096x256 [2] [1] [1] [2] [0] [0]
  dot_S64x4096x256_S64x256x256_S64x4096x256_2_1_1_2_0_0_wf : DotDims.WF S64x4096x256 S64x256x256 S64x4096x256 [2] [1] [1] [2] [0] [0]
  dot_S64x4096x256_S64x256x1_S64x4096x1_2_1_1_2_0_0_wf : DotDims.WF S64x4096x256 S64x256x1 S64x4096x1 [2] [1] [1] [2] [0] [0]

variable [Facts₀]

def dot_S64x4096x16_S64x16x256_S64x4096x256_2_1_1_2_0_0 : DotDims S64x4096x16 S64x16x256 S64x4096x256 where
  lhsContracting := [2]
  rhsContracting := [1]
  lhsNonContracting := [1]
  rhsNonContracting := [2]
  lhsBatch := [0]
  rhsBatch := [0]
  wf := dot_S64x4096x16_S64x16x256_S64x4096x256_2_1_1_2_0_0_wf
def dot_S64x4096x256_S64x256x256_S64x4096x256_2_1_1_2_0_0 : DotDims S64x4096x256 S64x256x256 S64x4096x256 where
  lhsContracting := [2]
  rhsContracting := [1]
  lhsNonContracting := [1]
  rhsNonContracting := [2]
  lhsBatch := [0]
  rhsBatch := [0]
  wf := dot_S64x4096x256_S64x256x256_S64x4096x256_2_1_1_2_0_0_wf
def dot_S64x4096x256_S64x256x1_S64x4096x1_2_1_1_2_0_0 : DotDims S64x4096x256 S64x256x1 S64x4096x1 where
  lhsContracting := [2]
  rhsContracting := [1]
  lhsNonContracting := [1]
  rhsNonContracting := [2]
  lhsBatch := [0]
  rhsBatch := [0]
  wf := dot_S64x4096x256_S64x256x1_S64x4096x1_2_1_1_2_0_0_wf

class Facts : Prop extends Facts₀ where

variable [Facts]
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.MlpSpec.lean ====
/-
  A three-hidden-layer perceptron with SiLU activations and one output unit, applied to one input row, on the
  extended reals.

  A dense layer sends a row u of K entries, through a K × N weight matrix w and a bias row b, to the row whose
  entry n is (Σ k, u k · w k n) + b n. SiLU is z ↦ z · σ(z) with σ the logistic function 1 / (1 + e^(-z)),
  taken with its limits 0 at -∞ and 1 at +∞. The network is three dense layers, each followed by SiLU, and a
  last dense layer with a single output unit, written here as the sum Σ k, h k · wl k plus the scalar bias.

  Both programs of the certificate compute this function of the same argument arrays, one ensemble member
  and one input row at a time; `mlpOut` is that function of the nine argument arrays, entry by entry.
-/
import Idealize.ShloMosaic.PureOps.Ideal
import Idealize.ShloMosaic.Lib.ValueIdx
import Idealize.ShloMosaic.Lib.IdealHost

noncomputable section

open scoped BigOperators

namespace Cert.Mlp

open Idealize.ShloMosaic Idealize.ShloMosaic.ValueIdx

/-- SiLU on the extended reals: z · σ(z). -/
def silu (z : EReal) : EReal := z * Ideal.logistic z

/-- Entry n of a dense layer: the row u against column n of the weights, plus the bias entry. -/
def dense {K N : Nat} (u : Fin K → EReal) (w : Fin K → Fin N → EReal) (b : Fin N → EReal) (n : Fin N) : EReal :=
  (∑ k : Fin K, u k * w k n) + b n

/-- The network on one input row x of 16 features: three SiLU layers of 256 units and one output unit. -/
def net (x : Fin 16 → EReal) (w0 : Fin 16 → Fin 256 → EReal) (b0 : Fin 256 → EReal)
    (w1 : Fin 256 → Fin 256 → EReal) (b1 : Fin 256 → EReal)
    (w2 : Fin 256 → Fin 256 → EReal) (b2 : Fin 256 → EReal)
    (wl : Fin 256 → EReal) (bl : EReal) : EReal :=
  (∑ k : Fin 256,
      silu (dense (fun j => silu (dense (fun i => silu (dense x w0 b0 i)) w1 b1 j)) w2 b2 k) * wl k) + bl

/-- An array of rank three over the extended reals. -/
abbrev Arr3 (a b c : Nat) : Type := (⟨3, ![a, b, c]⟩ : Shape).Idx → EReal

/-- The result array: entry (e, p, 0) is member e's network on row p of member e's inputs. -/
def mlpOut (x : Arr3 64 4096 16) (w0 : Arr3 64 16 256) (b0 : Arr3 64 1 256) (w1 : Arr3 64 256 256)
    (b1 : Arr3 64 1 256) (w2 : Arr3 64 256 256) (b2 : Arr3 64 1 256) (wl : Arr3 64 256 1) (bl : Arr3 64 1 1) :
    Arr3 64 4096 1 := fun i =>
  let e : Fin 64 := i 0
  let p : Fin 4096 := i 1
  net (fun k => x (ix3 e p k)) (fun k n => w0 (ix3 e k n)) (fun n => b0 (ix3 e (0 : Fin 1) n))
    (fun k n => w1 (ix3 e k n)) (fun n => b1 (ix3 e (0 : Fin 1) n))
    (fun k n => w2 (ix3 e k n)) (fun n => b2 (ix3 e (0 : Fin 1) n))
    (fun k => wl (ix3 e k (0 : Fin 1))) (bl (ix3 e (0 : Fin 1) (0 : Fin 1)))

/-- SiLU spelt with the logistic function expanded, 1.0 as its single-precision pattern: z · (1 / (1 + e^(-z))). -/
theorem silu_expanded (z : EReal) :
    z * Ideal.div (Ideal.ofBits .f32 0x3F800000#32) (Ideal.ofBits .f32 0x3F800000#32 + Ideal.exp (-z)) = silu z := by
  rw [Ideal.ofBits_one_f32]
  rfl

end Cert.Mlp

end
-- ==== Proof.KernelBlock.lean ====
/-
  What the kernel body leaves in one output block, read at a row, as the network of `MlpSpec`.

  At a grid point the body holds a tile of 2048 input rows (16 features each) and one ensemble member's weights and
  biases. Each hidden layer is a matrix product into a zero accumulator plus the bias row broadcast over the 2048
  rows, then z · σ(z); a product read at entry (r, n) is the sum over k of row r of the left factor against column n
  of the weights, so entry (r, n) of a layer depends on row r of the layer before it alone. The last layer multiplies
  the third hidden activation by the transposed output weights, one row broadcast over all rows, and sums along the
  256 units; the scalar bias is added to every row. A change of float format is the identity on the extended reals.
  So row r of the block is `net` of row r of the input tile and the member's parameters.
-/
import proofs.«115646_j773094113632_2_alg».proof.Proof.KernelValue
import proofs.«115646_j773094113632_2_alg».proof.Proof.LibMatmulPlain
import proofs.«115646_j773094113632_2_alg».proof.Proof.MlpSpec
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Mlp

/-- A pre-activation put through z · σ(z) and rounded to the product's input format is SiLU of it, entry by entry. -/
theorem act_apply {s : Shape} (v : FVec Ideal s .f32) (h : FTy.bf16.bits < FTy.f32.bits) (i : s.Idx) :
    (truncf .bf16 (mulf v (logistic v)) h : FVec Ideal s .bf16) i = silu (v i) := rfl

/-- One dense layer as the body spells it — the product of the layer's input (2048 rows of K entries) with the
    member's K × 256 weights into a zero accumulator, plus the bias row broadcast over the rows — read at (r, n). -/
theorem layer_apply {K : Nat} {φ : FTy}
    (wf : DotDims.WF ⟨2, ![2048, K]⟩ ⟨2, ![K, 256]⟩ ⟨2, ![2048, 256]⟩ [1] [0] [0] [1] [] [])
    (u : FVec Ideal ⟨2, ![2048, K]⟩ φ) (w : FVec Ideal ⟨3, ![1, K, 256]⟩ .f32) (b : FVec Ideal ⟨3, ![1, 1, 256]⟩ .f32)
    (hw : (⟨3, ![1, K, 256]⟩ : Shape).ShapeCasts ⟨2, ![K, 256]⟩)
    (hb : (⟨3, ![1, 1, 256]⟩ : Shape).ShapeCasts ⟨2, ![1, 256]⟩)
    (hbc : (⟨2, ![1, 256]⟩ : Shape).Broadcasts ⟨2, ![2048, 256]⟩) (hlt : FTy.bf16.bits < FTy.f32.bits)
    (r : Fin 2048) (n : Fin 256) :
    addf (matmul (LibMatmulPlain.plainDims 2048 K 256 wf) none u
          (truncf .bf16 (shapeCast ⟨2, ![K, 256]⟩ w hw) hlt) (constant ⟨2, ![2048, 256]⟩ .f32 0x00000000#32))
        (broadcastTo ⟨2, ![2048, 256]⟩ (shapeCast ⟨2, ![1, 256]⟩ b hb) hbc) (ix2 r n)
      = dense (fun k => u (ix2 r k)) (fun k n => w (ix3 (0 : Fin 1) k n))
          (fun n => b (ix3 (0 : Fin 1) (0 : Fin 1) n)) n := by
  show FloatOps.matmul (LibMatmulPlain.plainDims 2048 K 256 wf) none u
      (truncf .bf16 (shapeCast ⟨2, ![K, 256]⟩ w hw) hlt) (constant ⟨2, ![2048, 256]⟩ .f32 0x00000000#32) (ix2 r n)
    + broadcastTo ⟨2, ![2048, 256]⟩ (shapeCast ⟨2, ![1, 256]⟩ b hb) hbc (ix2 r n) = _
  rw [LibMatmulPlain.matmul_zero_apply, broadcastTo_1b_ab_apply, shapeCast_1ab_ab_apply]
  unfold dense
  refine congrArg (· + _) (Finset.sum_congr rfl fun k _ => ?_)
  show u (ix2 r k) * shapeCast ⟨2, ![K, 256]⟩ w hw (ix2 k n) = _
  rw [shapeCast_1ab_ab_apply]

/-- The third hidden layer's pre-activation at (r, n): three dense layers over row r of the input tile, SiLU
    between them. -/
theorem pay2_apply (P0 : Vec Ideal S1x2048x16 .f32) (P1 : Vec Ideal S1x16x256 .f32) (P2 : Vec Ideal S1x1x256 .f32)
    (P3 : Vec Ideal S1x256x256 .f32) (P4 : Vec Ideal S1x1x256 .f32) (P5 : Vec Ideal S1x256x256 .f32)
    (P6 : Vec Ideal S1x1x256 .f32) (r : Fin 2048) (n : Fin 256) :
    k0_pay2 (F := Ideal) P0 P1 P2 P3 P4 P5 P6 (ix2 r n)
      = dense (fun j => silu (dense (fun i => silu (dense (fun k => P0 (ix3 (0 : Fin 1) r k))
            (fun k n => P1 (ix3 (0 : Fin 1) k n)) (fun n => P2 (ix3 (0 : Fin 1) (0 : Fin 1) n)) i))
          (fun k n => P3 (ix3 (0 : Fin 1) k n)) (fun n => P4 (ix3 (0 : Fin 1) (0 : Fin 1) n)) j))
        (fun k n => P5 (ix3 (0 : Fin 1) k n)) (fun n => P6 (ix3 (0 : Fin 1) (0 : Fin 1) n)) n := by
  unfold k0_pay2
  refine (layer_apply dot_S2048x256_S256x256_S2048x256_1_0_0_1_n_n_wf _ P5 P6 _ _ _ _ r n).trans ?_
  refine congrArg (fun u => dense u _ _ n) (funext fun j => ?_)
  refine (act_apply _ _ (ix2 r j)).trans (congrArg silu ?_)
  refine (layer_apply dot_S2048x256_S256x256_S2048x256_1_0_0_1_n_n_wf _ P3 P4 _ _ _ _ r j).trans ?_
  refine congrArg (fun u => dense u _ _ j) (funext fun i => ?_)
  refine (act_apply _ _ (ix2 r i)).trans (congrArg silu ?_)
  refine (layer_apply dot_S2048x16_S16x256_S2048x256_1_0_0_1_n_n_wf _ P1 P2 _ _ _ _ r i).trans ?_
  refine congrArg (fun u => dense u _ _ i) (funext fun k => ?_)
  show shapeCast S2048x16 P0 shapeCasts_S1x2048x16_S2048x16 (ix2 r k) = _
  exact shapeCast_1ab_ab_apply P0 _ r k

/-- The sum over the 256 units of a 2048 × 256 array's row r, as the body's reduction along axis 1 spells it. -/
theorem rowSum_apply (src : FVec Ideal S2048x256 .f32) (r : Fin 2048) :
    multiReduction .add [1] S2048 src 0x00000000#32 reduces_S2048x256_S2048 (.inl rfl) rfl (ix1 r)
      = ∑ k : Fin 256, src (ix2 r k) := by
  refine (Ideal.multiReduction_add_single src 0x00000000#32 reduces_S2048x256_S2048 (.inl rfl) rfl (ix1 r)).trans ?_
  refine Finset.sum_congr rfl fun k _ => ?_
  exact congrArg src (funext fun d => Fin.ext (by match d with | ⟨0, _⟩ => rfl | ⟨1, _⟩ => rfl))

/-- ROW r OF THE OUTPUT BLOCK is the network on row r of the input tile: the third activation against the transposed
    output weights, summed over the units, plus the scalar bias. -/
theorem block_apply (P0 : Vec Ideal S1x2048x16 .f32) (P1 : Vec Ideal S1x16x256 .f32) (P2 : Vec Ideal S1x1x256 .f32)
    (P3 : Vec Ideal S1x256x256 .f32) (P4 : Vec Ideal S1x1x256 .f32) (P5 : Vec Ideal S1x256x256 .f32)
    (P6 : Vec Ideal S1x1x256 .f32) (P7 : Vec Ideal S1x1x256 .f32) (P8 : Vec Ideal S1x1x1 .f32)
    (u : Fin 1) (r : Fin 2048) (v : Fin 1) :
    ValueP.E9 (F := Ideal) P0 P1 P2 P3 P4 P5 P6 P7 P8 (ix3 u r v)
      = net (fun k => P0 (ix3 (0 : Fin 1) r k)) (fun k n => P1 (ix3 (0 : Fin 1) k n))
          (fun n => P2 (ix3 (0 : Fin 1) (0 : Fin 1) n)) (fun k n => P3 (ix3 (0 : Fin 1) k n))
          (fun n => P4 (ix3 (0 : Fin 1) (0 : Fin 1) n)) (fun k n => P5 (ix3 (0 : Fin 1) k n))
          (fun n => P6 (ix3 (0 : Fin 1) (0 : Fin 1) n)) (fun k => P7 (ix3 (0 : Fin 1) (0 : Fin 1) k))
          (P8 (ix3 (0 : Fin 1) (0 : Fin 1) (0 : Fin 1))) := by
  have hi0 : ValueP.ix9_0 (ix3 u r v) = ix1 r := funext fun a => Fin.ext (by match a with | ⟨0, _⟩ => rfl)
  have hi1 : ValueP.ix9_1 (ix3 u r v) = ix3 (0 : Fin 1) (0 : Fin 1) (0 : Fin 1) :=
    funext fun a => Fin.ext (by match a with | ⟨0, _⟩ => rfl | ⟨1, _⟩ => rfl | ⟨2, _⟩ => rfl)
  show (multiReduction .add [1] S2048 (mulf (mulf (k0_pay2 P0 P1 P2 P3 P4 P5 P6) (logistic (k0_pay2 P0 P1 P2 P3 P4 P5 P6)))
        (broadcastTo S2048x256 (shapeCast S1x256 P7 shapeCasts_S1x1x256_S1x256) broadcasts_S1x256_S2048x256))
        0x00000000#32 reduces_S2048x256_S2048 (.inl rfl) rfl) (ValueP.ix9_0 (ix3 u r v))
      + P8 (ValueP.ix9_1 (ix3 u r v)) = _
  rw [hi0, hi1, rowSum_apply]
  unfold net
  refine congrArg (· + _) (Finset.sum_congr rfl fun k _ => ?_)
  show silu (k0_pay2 (F := Ideal) P0 P1 P2 P3 P4 P5 P6 (ix2 r k))
      * broadcastTo S2048x256 (shapeCast S1x256 P7 shapeCasts_S1x1x256_S1x256) broadcasts_S1x256_S2048x256 (ix2 r k) = _
  rw [pay2_apply, broadcastTo_1b_ab_apply, shapeCast_1ab_ab_apply]

end Cert.KernelIdeal.Block

end
-- ==== Proof.KernelArray.lean ====
/-
  From the output's blocks to the whole result array.

  The grid has 64 × 2 points; point t works for ensemble member t / 2 on rows (t mod 2) · 2048 … + 2047 of that
  member's 4096 input rows, with the member's weights and biases whole, and writes rows (t mod 2) · 2048 … + 2047 of
  member t / 2 in the result. An element of a window's block sits in its array, on each axis, at the block index
  times the block's size plus its own coordinate. The output weights reach the kernel transposed, [64, 1, 256] from
  [64, 256, 1], by a host operation before the launch: entry (e, 0, k) of what the window reads is entry (e, k, 0)
  of the argument. So what point t writes back is block t of `mlpOut` of the argument arrays; the 128 blocks cover
  the result array (row p of member e lies in the block of point 2e + p / 2048), which therefore ends as `mlpOut`.
-/
import proofs.«115646_j773094113632_2_alg».proof.Proof.KernelBlock
import Idealize.ShloMosaic.Lib.StableHlo.Run

noncomputable section

open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx Cert.Mlp

variable (m : (ℓ : Loc nD τ sig) → Buf (Elt Ideal) ℓ) (ρ : Dev nD → PrngReg)

theorem hz : (![0, 0, 0] : Fin 3 → Nat) = fun _ => 0 := funext fun a => by fin_cases a <;> rfl

/-- The result array as the kernel's program leaves it: `mlpOut` of the nine argument arrays. -/
abbrev kernelOut (c : Dev nD) : Buf (Elt Ideal) ((c : Thread nD τ).loc main_v1) :=
  mlpOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-! ## Where each window's block sits at a point -/

/-- The input rows' and the output's blocks move with the point: member t / 2, row tile t mod 2. -/
theorem idx_tiled : ∀ t : Fin cfg0.N,
    win0_0.index t (0 : Fin 3) = t.val / 2 ∧ win0_0.index t (1 : Fin 3) = t.val % 2 ∧ win0_0.index t (2 : Fin 3) = 0
    ∧ win0_9.index t (0 : Fin 3) = t.val / 2 ∧ win0_9.index t (1 : Fin 3) = t.val % 2 ∧ win0_9.index t (2 : Fin 3) = 0 :=
  (by decide +kernel : ∀ t : Fin grid0.N, _)

/-- The parameter windows hold member t / 2's whole slice. -/
theorem idx_member : ∀ t : Fin cfg0.N,
    (win0_1.index t (0 : Fin 3) = t.val / 2 ∧ win0_1.index t (1 : Fin 3) = 0 ∧ win0_1.index t (2 : Fin 3) = 0)
    ∧ (win0_2.index t (0 : Fin 3) = t.val / 2 ∧ win0_2.index t (1 : Fin 3) = 0 ∧ win0_2.index t (2 : Fin 3) = 0)
    ∧ (win0_3.index t (0 : Fin 3) = t.val / 2 ∧ win0_3.index t (1 : Fin 3) = 0 ∧ win0_3.index t (2 : Fin 3) = 0)
    ∧ (win0_4.index t (0 : Fin 3) = t.val / 2 ∧ win0_4.index t (1 : Fin 3) = 0 ∧ win0_4.index t (2 : Fin 3) = 0)
    ∧ (win0_5.index t (0 : Fin 3) = t.val / 2 ∧ win0_5.index t (1 : Fin 3) = 0 ∧ win0_5.index t (2 : Fin 3) = 0)
    ∧ (win0_6.index t (0 : Fin 3) = t.val / 2 ∧ win0_6.index t (1 : Fin 3) = 0 ∧ win0_6.index t (2 : Fin 3) = 0)
    ∧ (win0_7.index t (0 : Fin 3) = t.val / 2 ∧ win0_7.index t (1 : Fin 3) = 0 ∧ win0_7.index t (2 : Fin 3) = 0)
    ∧ (win0_8.index t (0 : Fin 3) = t.val / 2 ∧ win0_8.index t (1 : Fin 3) = 0 ∧ win0_8.index t (2 : Fin 3) = 0) :=
  (by decide +kernel : ∀ t : Fin grid0.N, _)

/-- The ensemble member a point works for. -/
def member (t : Fin cfg0.N) : Fin 64 := ⟨t.val / 2, by have := t.isLt; have hN : cfg0.N = 128 := N_0; omega⟩

/-- The input row, among the member's 4096, that row r of a point's tile is. -/
def row (t : Fin cfg0.N) (r : Fin 2048) : Fin 4096 := ⟨t.val % 2 * 2048 + r.val, by have := r.isLt; omega⟩

/-! ## Each input block as entries of its argument array -/

/-- Window 0's block at point t is rows (t mod 2) · 2048 … of member t / 2's inputs. -/
theorem read_x (c : Dev nD) (t : Fin cfg0.N) (r : Fin 2048) (k : Fin 16) :
    (iblk m c 0 t : Vec Ideal S1x2048x16 .f32) (ix3 (0 : Fin 1) r k)
      = (m ((c : Thread nD τ).loc main_arg0) : S64x4096x16.Idx → EReal) (ix3 (member t) (row t r) k) := by
  obtain ⟨e0, e1, e2, -, -, -⟩ := idx_tiled t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * 0 = t.val / 2; omega
  | ⟨1, _⟩ => show win0_0.index t (1 : Fin 3) * 2048 + 1 * r.val = t.val % 2 * 2048 + r.val; omega
  | ⟨2, _⟩ => show win0_0.index t (2 : Fin 3) * 16 + 1 * k.val = k.val; omega

/-- Window 1's block is member t / 2's first weight matrix. -/
theorem read_w0 (c : Dev nD) (t : Fin cfg0.N) (k : Fin 16) (n : Fin 256) :
    (iblk m c 1 t : Vec Ideal S1x16x256 .f32) (ix3 (0 : Fin 1) k n)
      = (m ((c : Thread nD τ).loc main_arg1) : S64x16x256.Idx → EReal) (ix3 (member t) k n) := by
  obtain ⟨h1, h2, h3, h4, h5, h6, h7, h8⟩ := idx_member t
  obtain ⟨e0, e1, e2⟩ := h1
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 3) * 1 + 1 * 0 = t.val / 2; omega
  | ⟨1, _⟩ => show win0_1.index t (1 : Fin 3) * 16 + 1 * k.val = k.val; omega
  | ⟨2, _⟩ => show win0_1.index t (2 : Fin 3) * 256 + 1 * n.val = n.val; omega

/-- Window 2's block is member t / 2's first bias row. -/
theorem read_b0 (c : Dev nD) (t : Fin cfg0.N)  (n : Fin 256) :
    (iblk m c 2 t : Vec Ideal S1x1x256 .f32) (ix3 (0 : Fin 1) (0 : Fin 1) n)
      = (m ((c : Thread nD τ).loc main_arg2) : S64x1x256.Idx → EReal) (ix3 (member t) (0 : Fin 1) n) := by
  obtain ⟨h1, h2, h3, h4, h5, h6, h7, h8⟩ := idx_member t
  obtain ⟨e0, e1, e2⟩ := h2
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 3) * 1 + 1 * 0 = t.val / 2; omega
  | ⟨1, _⟩ => show win0_2.index t (1 : Fin 3) * 1 + 1 * 0 = 0; omega
  | ⟨2, _⟩ => show win0_2.index t (2 : Fin 3) * 256 + 1 * n.val = n.val; omega

/-- Window 3's block is member t / 2's second weight matrix. -/
theorem read_w1 (c : Dev nD) (t : Fin cfg0.N) (k : Fin 256) (n : Fin 256) :
    (iblk m c 3 t : Vec Ideal S1x256x256 .f32) (ix3 (0 : Fin 1) k n)
      = (m ((c : Thread nD τ).loc main_arg3) : S64x256x256.Idx → EReal) (ix3 (member t) k n) := by
  obtain ⟨h1, h2, h3, h4, h5, h6, h7, h8⟩ := idx_member t
  obtain ⟨e0, e1, e2⟩ := h3
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t (0 : Fin 3) * 1 + 1 * 0 = t.val / 2; omega
  | ⟨1, _⟩ => show win0_3.index t (1 : Fin 3) * 256 + 1 * k.val = k.val; omega
  | ⟨2, _⟩ => show win0_3.index t (2 : Fin 3) * 256 + 1 * n.val = n.val; omega

/-- Window 4's block is member t / 2's second bias row. -/
theorem read_b1 (c : Dev nD) (t : Fin cfg0.N)  (n : Fin 256) :
    (iblk m c 4 t : Vec Ideal S1x1x256 .f32) (ix3 (0 : Fin 1) (0 : Fin 1) n)
      = (m ((c : Thread nD τ).loc main_arg4) : S64x1x256.Idx → EReal) (ix3 (member t) (0 : Fin 1) n) := by
  obtain ⟨h1, h2, h3, h4, h5, h6, h7, h8⟩ := idx_member t
  obtain ⟨e0, e1, e2⟩ := h4
  unfold iblk
  rw [View.read_apply]
  show V m c main_arg4 _ = _
  rw [V_main_arg4]
  refine congrArg (m ((c : Thread nD τ).loc main_arg4)) (funext fun a => Fin.ext ?_)
  match a with
  | ⟨0, _⟩ => show win0_4.index t (0 : Fin 3) * 1 + 1 * 0 = t.val / 2; omega
  | ⟨1, _⟩ => show win0_4.index t (1 : Fin 3) * 1 + 1 * 0 = 0; omega
  | ⟨2, _⟩ => show win0_4.index t (2 : Fin 3) * 256 + 1 * n.val = n.val; omega

/-- Window 5's block is member t / 2's third weight matrix. -/
theorem read_w2 (c : Dev nD) (t : Fin cfg0.N) (k : Fin 256) (n : Fin 256) :
    (iblk m c 5 t : Vec Ideal S1x256x256 .f32) (ix3 (0 : Fin 1) k n)
      = (m ((c : Thread nD τ).loc main_arg5) : S64x256x256.Idx → EReal) (ix3 (member t) k n) := by
  obtain ⟨h1, h2, h3, h4, h5, h6, h7, h8⟩ := idx_member t
  obtain ⟨e0, e1, e2⟩ := h5
  unfold iblk
  rw [View.read_apply]
  show V m c main_arg5 _ = _
  rw [V_main_arg5]
  refine congrArg (m ((c : Thread nD τ).loc main_arg5)) (funext fun a => Fin.ext ?_)
  match a with
  | ⟨0, _⟩ => show win0_5.index t (0 : Fin 3) * 1 + 1 * 0 = t.val / 2; omega
  | ⟨1, _⟩ => show win0_5.index t (1 : Fin 3) * 256 + 1 * k.val = k.val; omega
  | ⟨2, _⟩ => show win0_5.index t (2 : Fin 3) * 256 + 1 * n.val = n.val; omega

/-- Window 6's block is member t / 2's third bias row. -/
theorem read_b2 (c : Dev nD) (t : Fin cfg0.N)  (n : Fin 256) :
    (iblk m c 6 t : Vec Ideal S1x1x256 .f32) (ix3 (0 : Fin 1) (0 : Fin 1) n)
      = (m ((c : Thread nD τ).loc main_arg6) : S64x1x256.Idx → EReal) (ix3 (member t) (0 : Fin 1) n) := by
  obtain ⟨h1, h2, h3, h4, h5, h6, h7, h8⟩ := idx_member t
  obtain ⟨e0, e1, e2⟩ := h6
  unfold iblk
  rw [View.read_apply]
  show V m c main_arg6 _ = _
  rw [V_main_arg6]
  refine congrArg (m ((c : Thread nD τ).loc main_arg6)) (funext fun a => Fin.ext ?_)
  match a with
  | ⟨0, _⟩ => show win0_6.index t (0 : Fin 3) * 1 + 1 * 0 = t.val / 2; omega
  | ⟨1, _⟩ => show win0_6.index t (1 : Fin 3) * 1 + 1 * 0 = 0; omega
  | ⟨2, _⟩ => show win0_6.index t (2 : Fin 3) * 256 + 1 * n.val = n.val; omega

/-- Window 8's block is member t / 2's output bias. -/
theorem read_bl (c : Dev nD) (t : Fin cfg0.N)   :
    (iblk m c 8 t : Vec Ideal S1x1x1 .f32) (ix3 (0 : Fin 1) (0 : Fin 1) (0 : Fin 1))
      = (m ((c : Thread nD τ).loc main_arg8) : S64x1x1.Idx → EReal) (ix3 (member t) (0 : Fin 1) (0 : Fin 1)) := by
  obtain ⟨h1, h2, h3, h4, h5, h6, h7, h8⟩ := idx_member t
  obtain ⟨e0, e1, e2⟩ := h8
  unfold iblk
  rw [View.read_apply]
  show V m c main_arg8 _ = _
  rw [V_main_arg8]
  refine congrArg (m ((c : Thread nD τ).loc main_arg8)) (funext fun a => Fin.ext ?_)
  match a with
  | ⟨0, _⟩ => show win0_8.index t (0 : Fin 3) * 1 + 1 * 0 = t.val / 2; omega
  | ⟨1, _⟩ => show win0_8.index t (1 : Fin 3) * 1 + 1 * 0 = 0; omega
  | ⟨2, _⟩ => show win0_8.index t (2 : Fin 3) * 1 + 1 * 0 = 0; omega

/-- The array window 7 reads is the output weights transposed by the host before the launch. -/
theorem V_wlT (c : Dev nD) :
    (V m c main_v0 : S64x1x256.Idx → EReal)
      = transpose S64x1x256 [0, 2, 1] (m ((c : Thread nD τ).loc main_arg7)) transposes_S64x256x1_S64x1x256_0_2_1 := by
  dsimp only [Gen.V, Gen.hostOps0]; after_results

/-- Window 7's block is member t / 2's output weights, read as a row. -/
theorem read_wl (c : Dev nD) (t : Fin cfg0.N) (k : Fin 256) :
    (iblk m c 7 t : Vec Ideal S1x1x256 .f32) (ix3 (0 : Fin 1) (0 : Fin 1) k)
      = (m ((c : Thread nD τ).loc main_arg7) : S64x256x1.Idx → EReal) (ix3 (member t) k (0 : Fin 1)) := by
  obtain ⟨h1, h2, h3, h4, h5, h6, h7, h8⟩ := idx_member t
  obtain ⟨e0, e1, e2⟩ := h7
  unfold iblk
  rw [View.read_apply]
  show (V m c main_v0 : S64x1x256.Idx → EReal) _ = _
  rw [V_wlT]
  refine Eq.trans (congrArg _ (funext fun a => Fin.ext ?_)) (transpose_ix3_021_apply _ _ (member t) (0 : Fin 1) k)
  match a with
  | ⟨0, _⟩ => show win0_7.index t (0 : Fin 3) * 1 + 1 * 0 = t.val / 2; omega
  | ⟨1, _⟩ => show win0_7.index t (1 : Fin 3) * 1 + 1 * 0 = 0; omega
  | ⟨2, _⟩ => show win0_7.index t (2 : Fin 3) * 256 + 1 * k.val = k.val; omega

/-- Where row r of point t's output block sits in the result array. -/
theorem out_emb (t : Fin cfg0.N) (u : Fin 1) (r : Fin 2048) (v : Fin 1) :
    (((cfg0.win 9).blk t).view.emb (ix3 u r v) : S64x4096x1.Idx) = ix3 (member t) (row t r) (0 : Fin 1) := by
  obtain ⟨-, -, -, e0, e1, e2⟩ := idx_tiled t
  have hu : u.val = 0 := by omega
  have hv : v.val = 0 := by omega
  refine funext fun a => Fin.ext ?_
  match a with
  | ⟨0, _⟩ => show win0_9.index t (0 : Fin 3) * 1 + 1 * u.val = t.val / 2; omega
  | ⟨1, _⟩ => show win0_9.index t (1 : Fin 3) * 2048 + 1 * r.val = t.val % 2 * 2048 + r.val; omega
  | ⟨2, _⟩ => show win0_9.index t (2 : Fin 3) * 1 + 1 * v.val = 0; omega

/-! ## What a point writes back -/

/-- The body's output block, over any input blocks, at row r: the network on row r of the input tile. -/
theorem out_apply (X0 : Vec Ideal S1x2048x16 .f32) (X1 : Vec Ideal S1x16x256 .f32) (X2 : Vec Ideal S1x1x256 .f32)
    (X3 : Vec Ideal S1x256x256 .f32) (X4 : Vec Ideal S1x1x256 .f32) (X5 : Vec Ideal S1x256x256 .f32)
    (X6 : Vec Ideal S1x1x256 .f32) (X7 : Vec Ideal S1x1x256 .f32) (X8 : Vec Ideal S1x1x1 .f32)
    (u : Fin 1) (r : Fin 2048) (v : Fin 1) :
    out0_9 (F := Ideal) X0 X1 X2 X3 X4 X5 X6 X7 X8 (ix3 u r v)
      = net (fun k => X0 (ix3 (0 : Fin 1) r k)) (fun k n => X1 (ix3 (0 : Fin 1) k n))
          (fun n => X2 (ix3 (0 : Fin 1) (0 : Fin 1) n)) (fun k n => X3 (ix3 (0 : Fin 1) k n))
          (fun n => X4 (ix3 (0 : Fin 1) (0 : Fin 1) n)) (fun k n => X5 (ix3 (0 : Fin 1) k n))
          (fun n => X6 (ix3 (0 : Fin 1) (0 : Fin 1) n)) (fun k => X7 (ix3 (0 : Fin 1) (0 : Fin 1) k))
          (X8 (ix3 (0 : Fin 1) (0 : Fin 1) (0 : Fin 1))) := by
  unfold out0_9
  rw [ValueP.canon9_eq]
  simp only [View.ld_unit_zero (S := S1x2048x16) hz, View.ld_unit_zero (S := S1x16x256) hz,
    View.ld_unit_zero (S := S1x1x256) hz, View.ld_unit_zero (S := S1x256x256) hz, View.ld_unit_zero (S := S1x1x1) hz]
  exact Block.block_apply X0 X1 X2 X3 X4 X5 X6 X7 X8 u r v

/-- WHAT POINT t WRITES BACK is block t of `mlpOut` of the argument arrays. -/
theorem flushed_eq (c : Dev nD) (t : Fin cfg0.N) :
    (dats m 0 c).flushed 9 t = ((cfg0.win 9).blk t).view.read (Elt Ideal) (kernelOut m c) := by
  rw [ValueP.flushed9]
  show (out0_9 (iblk m c 0 t) (iblk m c 1 t) (iblk m c 2 t) (iblk m c 3 t) (iblk m c 4 t) (iblk m c 5 t)
      (iblk m c 6 t) (iblk m c 7 t) (iblk m c 8 t) : Vec Ideal S1x2048x1 .f32)
    = fun y : S1x2048x1.Idx => kernelOut m c (((cfg0.win 9).blk t).view.emb y)
  funext y
  obtain ⟨u, r, v, rfl⟩ : ∃ (u : Fin 1) (r : Fin 2048) (v : Fin 1), y = ix3 u r v := ⟨y 0, y 1, y 2, eq_ix3 y⟩
  refine (out_apply (iblk m c 0 t) (iblk m c 1 t) (iblk m c 2 t) (iblk m c 3 t) (iblk m c 4 t) (iblk m c 5 t)
    (iblk m c 6 t) (iblk m c 7 t) (iblk m c 8 t) u r v).trans ?_
  rw [out_emb t u r v]
  simp only [read_x m c t, read_w0 m c t, read_b0 m c t, read_w1 m c t, read_b1 m c t, read_w2 m c t,
    read_b2 m c t, read_wl m c t, read_bl m c t]
  rfl

/-! ## The array after the run -/

/-- An index of the result array is in point t's block iff each coordinate is in the block's range on its axis. -/
theorem mem_blk (t : Fin cfg0.N) (i : S64x4096x1.Idx) :
    i ∈ ((cfg0.win 9).blk t).view.set ↔ ∀ a : Fin 3, win0_9.index t a * S1x2048x1.size a ≤ (i a).val
      ∧ (i a).val < win0_9.index t a * S1x2048x1.size a + S1x2048x1.size a := by
  show i ∈ ((View.whole main_v1).slice (win0_9.rect t)).set ↔ _
  rw [View.set_slice_whole, Rect.mem_set_unit]
  exact Iff.rfl

/-- Every entry of the result array is in some point's block: row p of member e in the block of point 2e + p / 2048. -/
theorem cover (i : S64x4096x1.Idx) :
    ∃ t : Fin cfg0.N, (cfg0.win 9).flush t = true ∧ i ∈ ((cfg0.win 9).blk t).view.set := by
  have hN : cfg0.N = 128 := N_0
  have h0 : (i 0).val < 64 := (i 0).isLt
  have h1 : (i 1).val < 4096 := (i 1).isLt
  have h2 : (i 2).val < 1 := (i 2).isLt
  obtain ⟨t, ht⟩ : ∃ t : Fin cfg0.N, t.val = 2 * (i 0).val + (i 1).val / 2048 :=
    ⟨⟨2 * (i 0).val + (i 1).val / 2048, by omega⟩, rfl⟩
  obtain ⟨-, -, -, e0, e1, e2⟩ := idx_tiled t
  refine ⟨t, flush0_9 t, ?_⟩
  rw [mem_blk]
  intro a
  match a with
  | ⟨0, _⟩ =>
    show win0_9.index t (0 : Fin 3) * 1 ≤ (i 0).val ∧ (i 0).val < win0_9.index t (0 : Fin 3) * 1 + 1
    omega
  | ⟨1, _⟩ =>
    show win0_9.index t (1 : Fin 3) * 2048 ≤ (i 1).val ∧ (i 1).val < win0_9.index t (1 : Fin 3) * 2048 + 2048
    omega
  | ⟨2, _⟩ =>
    show win0_9.index t (2 : Fin 3) * 1 ≤ (i 2).val ∧ (i 2).val < win0_9.index t (2 : Fin 3) * 1 + 1
    omega

/-- THE RESULT ARRAY after the run is `mlpOut` of the argument arrays. -/
theorem final (c : Dev nD) : (dats m 0 c).arrAt 9 cfg0.N = kernelOut m c :=
  (dats m 0 c).arrAt_eq_of_cover 9 (kernelOut m c) (fun t _ => flushed_eq m c t) cover

/-- The kernel program's run: every weakly fair execution terminates with the result array at `mlpOut` of the
    arguments and the arguments unchanged. -/
theorem run : θ_run defs (onTc (τ := τ) (main (F := Ideal))) ⟨m, fun _ => 0, ρ⟩ fun r => ∀ c : Dev nD,
      r.2.mem ((c : Thread nD τ).loc main_v1) = kernelOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (ValueP.run_blocks m ρ)

end Cert.KernelIdeal.Whole

end
-- ==== Proof.RefValue.lean ====
/-
  The reference's result, entry by entry, as the network of `MlpSpec`.

  The reference multiplies every member's inputs by its weights with one batched product per layer: entry (e, p, n)
  of such a product is the sum over k of the left operand's (e, p, k) against the right operand's (e, k, n). The
  bias [64, 1, 256] is broadcast along the 4096 rows, so entry (e, p, n) of the sum reads the bias at (e, 0, n).
  SiLU is spelt negate, exponential, one plus it, one over that, times the argument — the logistic function written
  out. The last product has a single output column, and the bias [64, 1, 1] is broadcast along the rows.
  Entry (e, p, 0) of the result is therefore `net` on row (e, p) of the inputs with member e's parameters.
-/
import proofs.«115646_j773094113632_2_alg».proof.Proof.Gen.ReferenceIdeal.Read
import proofs.«115646_j773094113632_2_alg».proof.Proof.MlpSpec

noncomputable section

open scoped BigOperators

namespace Cert.ReferenceIdeal.RefValue

open Cert.ReferenceIdeal Cert.ReferenceIdeal.Read Idealize.ShloMosaic Idealize.ShloMosaic.ValueIdx Cert.Mlp

/-! ## SiLU as the reference spells it -/

/-- The first call of SiLU in the reference, entry by entry: its negate, exponential, add, divide and multiply
    are z · (1 / (1 + e^(-z))). -/
theorem v3_silu (x0 : (⟨S64x4096x16, .f32⟩ : BufTy).Contents (Elt Ideal)) (x1 : (⟨S64x16x256, .f32⟩ : BufTy).Contents (Elt Ideal)) (x2 : (⟨S64x1x256, .f32⟩ : BufTy).Contents (Elt Ideal)) (j : S64x4096x256.Idx) :
    val_main_v3 (F := Ideal) x0 x1 x2 j = silu (val_main_v2 (F := Ideal) x0 x1 x2 j) := by
  rw [val_main_v3_apply, val_main_call0_v5_apply, val_main_call0_v4_apply, val_main_call0_cst_0_apply,
    val_main_call0_v3_apply, val_main_call0_v2_apply, val_main_call0_cst_apply, val_main_call0_v1_apply,
    val_main_call0_v0_apply]
  exact silu_expanded _

/-- The second call of SiLU in the reference, entry by entry: its negate, exponential, add, divide and multiply
    are z · (1 / (1 + e^(-z))). -/
theorem v7_silu (x0 : (⟨S64x4096x16, .f32⟩ : BufTy).Contents (Elt Ideal)) (x1 : (⟨S64x16x256, .f32⟩ : BufTy).Contents (Elt Ideal)) (x2 : (⟨S64x1x256, .f32⟩ : BufTy).Contents (Elt Ideal)) (x3 : (⟨S64x256x256, .f32⟩ : BufTy).Contents (Elt Ideal)) (x4 : (⟨S64x1x256, .f32⟩ : BufTy).Contents (Elt Ideal)) (j : S64x4096x256.Idx) :
    val_main_v7 (F := Ideal) x0 x1 x2 x3 x4 j = silu (val_main_v6 (F := Ideal) x0 x1 x2 x3 x4 j) := by
  rw [val_main_v7_apply, val_main_call1_v5_apply, val_main_call1_v4_apply, val_main_call1_cst_0_apply,
    val_main_call1_v3_apply, val_main_call1_v2_apply, val_main_call1_cst_apply, val_main_call1_v1_apply,
    val_main_call1_v0_apply]
  exact silu_expanded _

/-- The third call of SiLU in the reference, entry by entry: its negate, exponential, add, divide and multiply
    are z · (1 / (1 + e^(-z))). -/
theorem v11_silu (x0 : (⟨S64x4096x16, .f32⟩ : BufTy).Contents (Elt Ideal)) (x1 : (⟨S64x16x256, .f32⟩ : BufTy).Contents (Elt Ideal)) (x2 : (⟨S64x1x256, .f32⟩ : BufTy).Contents (Elt Ideal)) (x3 : (⟨S64x256x256, .f32⟩ : BufTy).Contents (Elt Ideal)) (x4 : (⟨S64x1x256, .f32⟩ : BufTy).Contents (Elt Ideal)) (x5 : (⟨S64x256x256, .f32⟩ : BufTy).Contents (Elt Ideal)) (x6 : (⟨S64x1x256, .f32⟩ : BufTy).Contents (Elt Ideal)) (j : S64x4096x256.Idx) :
    val_main_v11 (F := Ideal) x0 x1 x2 x3 x4 x5 x6 j = silu (val_main_v10 (F := Ideal) x0 x1 x2 x3 x4 x5 x6 j) := by
  rw [val_main_v11_apply, val_main_call2_v5_apply, val_main_call2_v4_apply, val_main_call2_cst_0_apply,
    val_main_call2_v3_apply, val_main_call2_v2_apply, val_main_call2_cst_apply, val_main_call2_v1_apply,
    val_main_call2_v0_apply]
  exact silu_expanded _

/-! ## The dense layers -/

/-- The first layer before its activation at (e, p, n): row (e, p) of the inputs through member e's first weights,
    plus member e's first bias at n. -/
theorem pre1_apply (x0 : (⟨S64x4096x16, .f32⟩ : BufTy).Contents (Elt Ideal)) (x1 : (⟨S64x16x256, .f32⟩ : BufTy).Contents (Elt Ideal)) (x2 : (⟨S64x1x256, .f32⟩ : BufTy).Contents (Elt Ideal)) (e : Fin 64) (p : Fin 4096) (n : Fin 256) :
    val_main_v2 (F := Ideal) x0 x1 x2 (ix3 e p n)
      = dense (fun k => x0 (ix3 e p k)) (fun k n => x1 (ix3 e k n)) (fun n => x2 (ix3 e (0 : Fin 1) n)) n := by
  rw [val_main_v2_apply, val_main_v0_apply, val_main_v1_apply]
  have hl : ∀ k : Fin 16, lidx_main_v0 (ix3 e p n) k = ix3 e p k := fun k => funext fun a => by match a with | ⟨0, _⟩ => rfl | ⟨1, _⟩ => rfl | ⟨2, _⟩ => rfl
  have hr : ∀ k : Fin 16, ridx_main_v0 (ix3 e p n) k = ix3 e k n := fun k => funext fun a => by match a with | ⟨0, _⟩ => rfl | ⟨1, _⟩ => rfl | ⟨2, _⟩ => rfl
  have hb : idx_main_v1 (ix3 e p n) = ix3 e (0 : Fin 1) n := funext fun a => by match a with | ⟨0, _⟩ => rfl | ⟨1, _⟩ => rfl | ⟨2, _⟩ => rfl
  simp only [hl, hr, hb]
  rfl

/-- The second layer before its activation at (e, p, n), over the first layer's activations of row (e, p). -/
theorem pre2_apply (x0 : (⟨S64x4096x16, .f32⟩ : BufTy).Contents (Elt Ideal)) (x1 : (⟨S64x16x256, .f32⟩ : BufTy).Contents (Elt Ideal)) (x2 : (⟨S64x1x256, .f32⟩ : BufTy).Contents (Elt Ideal)) (x3 : (⟨S64x256x256, .f32⟩ : BufTy).Contents (Elt Ideal)) (x4 : (⟨S64x1x256, .f32⟩ : BufTy).Contents (Elt Ideal)) (e : Fin 64) (p : Fin 4096) (n : Fin 256) :
    val_main_v6 (F := Ideal) x0 x1 x2 x3 x4 (ix3 e p n)
      = dense (fun k => val_main_v3 (F := Ideal) x0 x1 x2 (ix3 e p k)) (fun k n => x3 (ix3 e k n))
          (fun n => x4 (ix3 e (0 : Fin 1) n)) n := by
  rw [val_main_v6_apply, val_main_v4_apply, val_main_v5_apply]
  have hl : ∀ k : Fin 256, lidx_main_v4 (ix3 e p n) k = ix3 e p k := fun k => funext fun a => by match a with | ⟨0, _⟩ => rfl | ⟨1, _⟩ => rfl | ⟨2, _⟩ => rfl
  have hr : ∀ k : Fin 256, ridx_main_v4 (ix3 e p n) k = ix3 e k n := fun k => funext fun a => by match a with | ⟨0, _⟩ => rfl | ⟨1, _⟩ => rfl | ⟨2, _⟩ => rfl
  have hb : idx_main_v5 (ix3 e p n) = ix3 e (0 : Fin 1) n := funext fun a => by match a with | ⟨0, _⟩ => rfl | ⟨1, _⟩ => rfl | ⟨2, _⟩ => rfl
  simp only [hl, hr, hb]
  rfl

/-- The third layer before its activation at (e, p, n), over the second layer's activations of row (e, p). -/
theorem pre3_apply (x0 : (⟨S64x4096x16, .f32⟩ : BufTy).Contents (Elt Ideal)) (x1 : (⟨S64x16x256, .f32⟩ : BufTy).Contents (Elt Ideal)) (x2 : (⟨S64x1x256, .f32⟩ : BufTy).Contents (Elt Ideal)) (x3 : (⟨S64x256x256, .f32⟩ : BufTy).Contents (Elt Ideal)) (x4 : (⟨S64x1x256, .f32⟩ : BufTy).Contents (Elt Ideal)) (x5 : (⟨S64x256x256, .f32⟩ : BufTy).Contents (Elt Ideal)) (x6 : (⟨S64x1x256, .f32⟩ : BufTy).Contents (Elt Ideal)) (e : Fin 64) (p : Fin 4096) (n : Fin 256) :
    val_main_v10 (F := Ideal) x0 x1 x2 x3 x4 x5 x6 (ix3 e p n)
      = dense (fun k => val_main_v7 (F := Ideal) x0 x1 x2 x3 x4 (ix3 e p k)) (fun k n => x5 (ix3 e k n))
          (fun n => x6 (ix3 e (0 : Fin 1) n)) n := by
  rw [val_main_v10_apply, val_main_v8_apply, val_main_v9_apply]
  have hl : ∀ k : Fin 256, lidx_main_v8 (ix3 e p n) k = ix3 e p k := fun k => funext fun a => by match a with | ⟨0, _⟩ => rfl | ⟨1, _⟩ => rfl | ⟨2, _⟩ => rfl
  have hr : ∀ k : Fin 256, ridx_main_v8 (ix3 e p n) k = ix3 e k n := fun k => funext fun a => by match a with | ⟨0, _⟩ => rfl | ⟨1, _⟩ => rfl | ⟨2, _⟩ => rfl
  have hb : idx_main_v9 (ix3 e p n) = ix3 e (0 : Fin 1) n := funext fun a => by match a with | ⟨0, _⟩ => rfl | ⟨1, _⟩ => rfl | ⟨2, _⟩ => rfl
  simp only [hl, hr, hb]
  rfl

/-! ## The result -/

/-- THE REFERENCE'S RESULT is `mlpOut` of the argument arrays. -/
theorem result_eq (x0 : (⟨S64x4096x16, .f32⟩ : BufTy).Contents (Elt Ideal)) (x1 : (⟨S64x16x256, .f32⟩ : BufTy).Contents (Elt Ideal)) (x2 : (⟨S64x1x256, .f32⟩ : BufTy).Contents (Elt Ideal)) (x3 : (⟨S64x256x256, .f32⟩ : BufTy).Contents (Elt Ideal)) (x4 : (⟨S64x1x256, .f32⟩ : BufTy).Contents (Elt Ideal)) (x5 : (⟨S64x256x256, .f32⟩ : BufTy).Contents (Elt Ideal)) (x6 : (⟨S64x1x256, .f32⟩ : BufTy).Contents (Elt Ideal)) (x7 : (⟨S64x256x1, .f32⟩ : BufTy).Contents (Elt Ideal)) (x8 : (⟨S64x1x1, .f32⟩ : BufTy).Contents (Elt Ideal)) :
    val_main_v14 (F := Ideal) x0 x1 x2 x3 x4 x5 x6 x7 x8 = mlpOut x0 x1 x2 x3 x4 x5 x6 x7 x8 := by
  funext i
  obtain ⟨e, p, z, rfl⟩ : ∃ (e : Fin 64) (p : Fin 4096) (z : Fin 1), i = ix3 e p z := ⟨i 0, i 1, i 2, eq_ix3 i⟩
  rw [val_main_v14_apply, val_main_v12_apply, val_main_v13_apply]
  have hz : z = 0 := Fin.ext (by have := z.isLt; omega)
  subst hz
  have hl : ∀ k : Fin 256, lidx_main_v12 (ix3 e p (0 : Fin 1)) k = ix3 e p k := fun k => funext fun a => by match a with | ⟨0, _⟩ => rfl | ⟨1, _⟩ => rfl | ⟨2, _⟩ => rfl
  have hr : ∀ k : Fin 256, ridx_main_v12 (ix3 e p (0 : Fin 1)) k = ix3 e k (0 : Fin 1) := fun k => funext fun a => by match a with | ⟨0, _⟩ => rfl | ⟨1, _⟩ => rfl | ⟨2, _⟩ => rfl
  have hb : idx_main_v13 (ix3 e p (0 : Fin 1)) = ix3 e (0 : Fin 1) (0 : Fin 1) := funext fun a => by match a with | ⟨0, _⟩ => rfl | ⟨1, _⟩ => rfl | ⟨2, _⟩ => rfl
  simp only [hl, hr, hb]
  show (∑ k : Fin 256, val_main_v11 (F := Ideal) x0 x1 x2 x3 x4 x5 x6 (ix3 e p k) * x7 (ix3 e k (0 : Fin 1)))
      + x8 (ix3 e (0 : Fin 1) (0 : Fin 1)) = net _ _ _ _ _ _ _ _ _
  unfold net
  refine congrArg (· + _) (Finset.sum_congr rfl fun k _ => congrArg (· * _) ?_)
  rw [v11_silu, pre3_apply]
  refine congrArg silu (congrArg (fun u => dense u _ _ k) (funext fun j => ?_))
  rw [v7_silu, pre2_apply]
  refine congrArg silu (congrArg (fun u => dense u _ _ j) (funext fun i => ?_))
  rw [v3_silu, pre1_apply]

end Cert.ReferenceIdeal.RefValue

end
-- ==== Proof.lean ====
/-
  An ensemble of 64 small perceptrons (16 inputs, three hidden layers of 256 units with SiLU, one output), each
  applied to its own 4096 input rows: the kernel against the reference, on the extended reals.

  The kernel works one member and one tile of 2048 rows at a time, rounding to a shorter float format on the way
  into each of its three matrix products (the identity here) and computing the last, one-column layer as a
  broadcast product with the transposed output weights summed over the units; the reference uses one batched
  product per layer and spells SiLU's logistic function out. Entry (e, p, 0) of either result is the same
  function `Cert.Mlp.net` of row (e, p) of the inputs and member e's parameters: a matrix product into a zero
  accumulator, read at an entry, is the finite sum the batched product is; a sum over the units is the last
  product's one column; and z · σ(z) is z · (1 / (1 + e^(-z))) at every extended real, the infinities included.
  No law of arithmetic beyond these readings is used, so the inputs' finiteness is never opened.

  The three frames are the generated ones (the reference's from its run); the idealization rewrote nothing.
-/
import proofs.«115646_j773094113632_2_alg».proof.Defs
import proofs.«115646_j773094113632_2_alg».proof.Proof.Gen.Kernel
import proofs.«115646_j773094113632_2_alg».proof.Proof.Gen.Kernel.Skeleton
import proofs.«115646_j773094113632_2_alg».proof.Proof.Gen.Kernel.Launch
import proofs.«115646_j773094113632_2_alg».proof.Proof.Gen.Kernel.Points
import proofs.«115646_j773094113632_2_alg».proof.Proof.Gen.Kernel.Frame
import proofs.«115646_j773094113632_2_alg».proof.Proof.Gen.KernelIdeal
import proofs.«115646_j773094113632_2_alg».proof.Proof.Gen.KernelIdeal.Skeleton
import proofs.«115646_j773094113632_2_alg».proof.Proof.Gen.KernelIdeal.Launch
import proofs.«115646_j773094113632_2_alg».proof.Proof.Gen.KernelIdeal.Points
import proofs.«115646_j773094113632_2_alg».proof.Proof.Gen.KernelIdeal.Frame
import proofs.«115646_j773094113632_2_alg».proof.Proof.Gen.ReferenceIdeal
import proofs.«115646_j773094113632_2_alg».proof.Proof.Gen.Pre_finite_inputs
import proofs.«115646_j773094113632_2_alg».proof.Proof.Gen.ReferenceIdeal.Run
import proofs.«115646_j773094113632_2_alg».proof.Proof.Gen.ReferenceIdeal.Read
import proofs.«115646_j773094113632_2_alg».proof.Proof.KernelArray
import proofs.«115646_j773094113632_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame is its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the result array at `mlpOut` of the
    arguments. -/
theorem algebraic : Cert.algebraic_KernelIdeal_ReferenceIdeal := by
  intro m ρ m' ρ' _ hagree
  refine ⟨fun c => Cert.KernelIdeal.Whole.kernelOut m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq]
  obtain ⟨a0, a1, a2, a3, a4, a5, a6, a7, a8⟩ := hagree c
  rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_ideal, frame_ref, trivial, algebraic⟩

end Cert.Proof

end
